-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x800 : Shape := ⟨2, ![512, 800]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x800 : S_.BroadcastsInDim S512x800 (![] : Fin 0 → Fin S512x800.rank)
  reducesTo_S512x800_S_d0_1 : S512x800.ReducesTo [0, 1] S_

variable [Facts]

def fn {F : FTy → Type} [FloatOps F] (main_arg0 : FVec F S512x512 .f32) (main_arg1 : FVec F S512x800 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x800 .f32 := Host.absf main_arg1
  let main_cst_0 : FVec F S_ .f32 := constant S_ .f32 0x7F800000#32
  let main_v5 : FVec F S512x800 .f32 := broadcastInDim S512x800 ![] bcast_S_S512x800 main_cst_0
  let main_v6 : IVec S512x800 1 := cmpf .olt main_v4 main_v5
  let main_c_1 : IVec S_ 1 := constantI S_ 1 1#1
  let main_v7 : IVec S_ 1 := (fun x v => Host.reduce IntOp.andi x v reducesTo_S512x800_S_d0_1 h_S_) main_v6 main_c_1
  let main_v8 : IVec S_ 1 := andi main_v3 main_v7
  main_v8
-- ==== Kernel.lean ====
abbrev S512x512 : Shape := ⟨2, ![512, 512]⟩
abbrev S512x800 : Shape := ⟨2, ![512, 800]⟩
abbrev S128x512 : Shape := ⟨2, ![128, 512]⟩
abbrev S128x800 : Shape := ⟨2, ![128, 800]⟩
abbrev S512x50x16 : Shape := ⟨3, ![512, 50, 16]⟩
abbrev S50x16x512 : Shape := ⟨3, ![50, 16, 512]⟩
abbrev S512x50 : Shape := ⟨2, ![512, 50]⟩
abbrev S256x50x16 : Shape := ⟨3, ![256, 50, 16]⟩
abbrev S256x50 : Shape := ⟨2, ![256, 50]⟩
abbrev S256x1x16 : Shape := ⟨3, ![256, 1, 16]⟩
abbrev S256x16 : Shape := ⟨2, ![256, 16]⟩
abbrev S1x16x512 : Shape := ⟨3, ![1, 16, 512]⟩
abbrev S16x512 : Shape := ⟨2, ![16, 512]⟩
abbrev S256x16x1 : Shape := ⟨3, ![256, 16, 1]⟩
abbrev S256x16x512 : Shape := ⟨3, ![256, 16, 512]⟩
abbrev S256x512 : Shape := ⟨2, ![256, 512]⟩
abbrev S256 : Shape := ⟨1, ![256]⟩
abbrev S256x1 : Shape := ⟨2, ![256, 1]⟩
abbrev S512x562 : Shape := ⟨2, ![512, 562]⟩

abbrev nBuf : Space → Nat
  | .hbm => 7
  | .vmem => 10
  | .smem => 0
  | _ => 0

abbrev bufTy : (tb : Table) → Fin (tcTables nBuf tb) → BufTy
  | .hbm, ⟨0, _⟩ => ⟨S512x512, .f32⟩
  | .hbm, ⟨1, _⟩ => ⟨S512x800, .f32⟩
  | .hbm, ⟨2, _⟩ => ⟨S512x800, .f32⟩
  | .hbm, ⟨3, _⟩ => ⟨S512x50x16, .f32⟩
  | .hbm, ⟨4, _⟩ => ⟨S50x16x512, .f32⟩
  | .hbm, ⟨5, _⟩ => ⟨S512x50, .f32⟩
  | .hbm, ⟨6, _⟩ => ⟨S512x562, .f32⟩
  | .local _ .vmem, ⟨0, _⟩ => ⟨S128x512, .f32⟩
  | .local _ .vmem, ⟨1, _⟩ => ⟨S128x512, .f32⟩
  | .local _ .vmem, ⟨2, _⟩ => ⟨S512x800, .f32⟩
  | .local _ .vmem, ⟨3, _⟩ => ⟨S128x800, .f32⟩
  | .local _ .vmem, ⟨4, _⟩ => ⟨S128x800, .f32⟩
  | .local _ .vmem, ⟨5, _⟩ => ⟨S256x50x16, .f32⟩
  | .local _ .vmem, ⟨6, _⟩ => ⟨S256x50x16, .f32⟩
  | .local _ .vmem, ⟨7, _⟩ => ⟨S50x16x512, .f32⟩
  | .local _ .vmem, ⟨8, _⟩ => ⟨S256x50, .f32⟩
  | .local _ .vmem, ⟨9, _⟩ => ⟨S256x50, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x800 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x50x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S50x16x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x50 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S128x512_S128x512_0_0 : ∀ a, (![0, 0] : Fin 2 → Nat) a + S128x512.size a ≤ S128x512.size a
  h_S128x512 : 0 < S128x512.numel
  inb_S512x800_S512x800_0_0 : ∀ a, (![0, 0] : Fin 2 → Nat) a + S512x800.size a ≤ S512x800.size a
  h_S512x800 : 0 < S512x800.numel
  inb_S128x800_S128x800_0_0 : ∀ a, (![0, 0] : Fin 2 → Nat) a + S128x800.size a ≤ S128x800.size a
  h_S128x800 : 0 < S128x800.numel
  shapeCasts_S512x800_S512x50x16 : S512x800.ShapeCasts S512x50x16
  transposes_S512x50x16_S50x16x512_1_2_0 : S512x50x16.Transposes [1, 2, 0] S50x16x512
  inb_S256x50x16_S256x1x16_0_0_0 : ∀ a, (![0, 0, 0] : Fin 3 → Nat) a + S256x1x16.size a ≤ S256x50x16.size a
  h_S256x1x16 : 0 < S256x1x16.numel
  shapeCasts_S256x1x16_S256x16 : S256x1x16.ShapeCasts S256x16
  inb_S50x16x512_S1x16x512_0_0_0 : ∀ a, (![0, 0, 0] : Fin 3 → Nat) a + S1x16x512.size a ≤ S50x16x512.size a
  h_S1x16x512 : 0 < S1x16x512.numel
  shapeCasts_S1x16x512_S16x512 : S1x16x512.ShapeCasts S16x512
  shapeCasts_S256x16_S256x16x1 : S256x16.ShapeCasts S256x16x1
  shapeCasts_S16x512_S1x16x512 : S16x512.ShapeCasts S1x16x512
  broadcasts_S256x16x1_S256x16x512 : S256x16x1.Broadcasts S256x16x512
  broadcasts_S1x16x512_S256x16x512 : S1x16x512.Broadcasts S256x16x512
  reduces_S256x16x512_S256x512 : S256x16x512.Reduces [1] S256x512
  reduces_S256x512_S256 : S256x512.Reduces [1] S256
  shapeCasts_S256_S256x1 : S256.ShapeCasts S256x1
  inb_S256x50x16_S256x1x16_0_1_0 : ∀ a, (![0, 1, 0] : Fin 3 → Nat) a + S256x1x16.size a ≤ S256x50x16.size a
  inb_S50x16x512_S1x16x512_1_0_0 : ∀ a, (![1, 0, 0] : Fin 3 → Nat) a + S1x16x512.size a ≤ S50x16x512.size a
  inb_S256x50x16_S256x1x16_0_2_0 : ∀ a, (![0, 2, 0] : Fin 3 → Nat) a + S256x1x16.size a ≤ S256x50x16.size a
  inb_S50x16x512_S1x16x512_2_0_0 : ∀ a, (![2, 0, 0] : Fin 3 → Nat) a + S1x16x512.size a ≤ S50x16x512.size a
  inb_S256x50x16_S256x1x16_0_3_0 : ∀ a, (![0, 3, 0] : Fin 3 → Nat) a + S256x1x16.size a ≤ S256x50x16.size a
  inb_S50x16x512_S1x16x512_3_0_0 : ∀ a, (![3, 0, 0] : Fin 3 → Nat) a + S1x16x512.size a ≤ S50x16x512.size a
  inb_S256x50x16_S256x1x16_0_4_0 : ∀ a, (![0, 4, 0] : Fin 3 → Nat) a + S256x1x16.size a ≤ S256x50x16.size a
  inb_S50x16x512_S1x16x512_4_0_0 : ∀ a, (![4, 0, 0] : Fin 3 → Nat) a + S1x16x512.size a ≤ S50x16x512.size a
  inb_S256x50x16_S256x1x16_0_5_0 : ∀ a, (![0, 5, 0] : Fin 3 → Nat) a + S256x1x16.size a ≤ S256x50x16.size a
  inb_S50x16x512_S1x16x512_5_0_0 : ∀ a, (![5, 0, 0] : Fin 3 → Nat) a + S1x16x512.size a ≤ S50x16x512.size a
  inb_S256x50x16_S256x1x16_0_6_0 : ∀ a, (![0, 6, 0] : Fin 3 → Nat) a + S256x1x16.size a ≤ S256x50x16.size a
  inb_S50x16x512_S1x16x512_6_0_0 : ∀ a, (![6, 0, 0] : Fin 3 → Nat) a + S1x16x512.size a ≤ S50x16x512.size a
  inb_S256x50x16_S256x1x16_0_7_0 : ∀ a, (![0, 7, 0] : Fin 3 → Nat) a + S256x1x16.size a ≤ S256x50x16.size a
  inb_S50x16x512_S1x16x512_7_0_0 : ∀ a, (![7, 0, 0] : Fin 3 → Nat) a + S1x16x512.size a ≤ S50x16x512.size a
  inb_S256x50x16_S256x1x16_0_8_0 : ∀ a, (![0, 8, 0] : Fin 3 → Nat) a + S256x1x16.size a ≤ S256x50x16.size a
  inb_S50x16x512_S1x16x512_8_0_0 : ∀ a, (![8, 0, 0] : Fin 3 → Nat) a + S1x16x512.size a ≤ S50x16x512.size a
  inb_S256x50x16_S256x1x16_0_9_0 : ∀ a, (![0, 9, 0] : Fin 3 → Nat) a + S256x1x16.size a ≤ S256x50x16.size a
  inb_S50x16x512_S1x16x512_9_0_0 : ∀ a, (![9, 0, 0] : Fin 3 → Nat) a + S1x16x512.size a ≤ S50x16x512.size a
  inb_S256x50x16_S256x1x16_0_10_0 : ∀ a, (![0, 10, 0] : Fin 3 → Nat) a + S256x1x16.size a ≤ S256x50x16.size a
  inb_S50x16x512_S1x16x512_10_0_0 : ∀ a, (![10, 0, 0] : Fin 3 → Nat) a + S1x16x512.size a ≤ S50x16x512.size a
  inb_S256x50x16_S256x1x16_0_11_0 : ∀ a, (![0, 11, 0] : Fin 3 → Nat) a + S256x1x16.size a ≤ S256x50x16.size a
  inb_S50x16x512_S1x16x512_11_0_0 : ∀ a, (![11, 0, 0] : Fin 3 → Nat) a + S1x16x512.size a ≤ S50x16x512.size a
  inb_S256x50x16_S256x1x16_0_12_0 : ∀ a, (![0, 12, 0] : Fin 3 → Nat) a + S256x1x16.size a ≤ S256x50x16.size a
  inb_S50x16x512_S1x16x512_12_0_0 : ∀ a, (![12, 0, 0] : Fin 3 → Nat) a + S1x16x512.size a ≤ S50x16x512.size a
  inb_S256x50x16_S256x1x16_0_13_0 : ∀ a, (![0, 13, 0] : Fin 3 → Nat) a + S256x1x16.size a ≤ S256x50x16.size a
  inb_S50x16x512_S1x16x512_13_0_0 : ∀ a, (![13, 0, 0] : Fin 3 → Nat) a + S1x16x512.size a ≤ S50x16x512.size a
  inb_S256x50x16_S256x1x16_0_14_0 : ∀ a, (![0, 14, 0] : Fin 3 → Nat) a + S256x1x16.size a ≤ S256x50x16.size a
  inb_S50x16x512_S1x16x512_14_0_0 : ∀ a, (![14, 0, 0] : Fin 3 → Nat) a + S1x16x512.size a ≤ S50x16x512.size a
  inb_S256x50x16_S256x1x16_0_15_0 : ∀ a, (![0, 15, 0] : Fin 3 → Nat) a + S256x1x16.size a ≤ S256x50x16.size a
  inb_S50x16x512_S1x16x512_15_0_0 : ∀ a, (![15, 0, 0] : Fin 3 → Nat) a + S1x16x512.size a ≤ S50x16x512.size a
  inb_S256x50x16_S256x1x16_0_16_0 : ∀ a, (![0, 16, 0] : Fin 3 → Nat) a + S256x1x16.size a ≤ S256x50x16.size a
  inb_S50x16x512_S1x16x512_16_0_0 : ∀ a, (![16, 0, 0] : Fin 3 → Nat) a + S1x16x512.size a ≤ S50x16x512.size a
  inb_S256x50x16_S256x1x16_0_17_0 : ∀ a, (![0, 17, 0] : Fin 3 → Nat) a + S256x1x16.size a ≤ S256x50x16.size a
  inb_S50x16x512_S1x16x512_17_0_0 : ∀ a, (![17, 0, 0] : Fin 3 → Nat) a + S1x16x512.size a ≤ S50x16x512.size a
  inb_S256x50x16_S256x1x16_0_18_0 : ∀ a, (![0, 18, 0] : Fin 3 → Nat) a + S256x1x16.size a ≤ S256x50x16.size a
  inb_S50x16x512_S1x16x512_18_0_0 : ∀ a, (![18, 0, 0] : Fin 3 → Nat) a + S1x16x512.size a ≤ S50x16x512.size a
  inb_S256x50x16_S256x1x16_0_19_0 : ∀ a, (![0, 19, 0] : Fin 3 → Nat) a + S256x1x16.size a ≤ S256x50x16.size a
  inb_S50x16x512_S1x16x512_19_0_0 : ∀ a, (![19, 0, 0] : Fin 3 → Nat) a + S1x16x512.size a ≤ S50x16x512.size a
  inb_S256x50x16_S256x1x16_0_20_0 : ∀ a, (![0, 20, 0] : Fin 3 → Nat) a + S256x1x16.size a ≤ S256x50x16.size a
  inb_S50x16x512_S1x16x512_20_0_0 : ∀ a, (![20, 0, 0] : Fin 3 → Nat) a + S1x16x512.size a ≤ S50x16x512.size a
  inb_S256x50x16_S256x1x16_0_21_0 : ∀ a, (![0, 21, 0] : Fin 3 → Nat) a + S256x1x16.size a ≤ S256x50x16.size a
  inb_S50x16x512_S1x16x512_21_0_0 : ∀ a, (![21, 0, 0] : Fin 3 → Nat) a + S1x16x512.size a ≤ S50x16x512.size a
  inb_S256x50x16_S256x1x16_0_22_0 : ∀ a, (![0, 22, 0] : Fin 3 → Nat) a + S256x1x16.size a ≤ S256x50x16.size a
  inb_S50x16x512_S1x16x512_22_0_0 : ∀ a, (![22, 0, 0] : Fin 3 → Nat) a + S1x16x512.size a ≤ S50x16x512.size a
  inb_S256x50x16_S256x1x16_0_23_0 : ∀ a, (![0, 23, 0] : Fin 3 → Nat) a + S256x1x16.size a ≤ S256x50x16.size a
  inb_S50x16x512_S1x16x512_23_0_0 : ∀ a, (![23, 0, 0] : Fin 3 → Nat) a + S1x16x512.size a ≤ S50x16x512.size a
  inb_S256x50x16_S256x1x16_0_24_0 : ∀ a, (![0, 24, 0] : Fin 3 → Nat) a + S256x1x16.size a ≤ S256x50x16.size a
  inb_S50x16x512_S1x16x512_24_0_0 : ∀ a, (![24, 0, 0] : Fin 3 → Nat) a + S1x16x512.size a ≤ S50x16x512.size a
  inb_S256x50x16_S256x1x16_0_25_0 : ∀ a, (![0, 25, 0] : Fin 3 → Nat) a + S256x1x16.size a ≤ S256x50x16.size a
  inb_S50x16x512_S1x16x512_25_0_0 : ∀ a, (![25, 0, 0] : Fin 3 → Nat) a + S1x16x512.size a ≤ S50x16x512.size a
  inb_S256x50x16_S256x1x16_0_26_0 : ∀ a, (![0, 26, 0] : Fin 3 → Nat) a + S256x1x16.size a ≤ S256x50x16.size a
  inb_S50x16x512_S1x16x512_26_0_0 : ∀ a, (![26, 0, 0] : Fin 3 → Nat) a + S1x16x512.size a ≤ S50x16x512.size a
  inb_S256x50x16_S256x1x16_0_27_0 : ∀ a, (![0, 27, 0] : Fin 3 → Nat) a + S256x1x16.size a ≤ S256x50x16.size a
  inb_S50x16x512_S1x16x512_27_0_0 : ∀ a, (![27, 0, 0] : Fin 3 → Nat) a + S1x16x512.size a ≤ S50x16x512.size a
  inb_S256x50x16_S256x1x16_0_28_0 : ∀ a, (![0, 28, 0] : Fin 3 → Nat) a + S256x1x16.size a ≤ S256x50x16.size a
  inb_S50x16x512_S1x16x512_28_0_0 : ∀ a, (![28, 0, 0] : Fin 3 → Nat) a + S1x16x512.size a ≤ S50x16x512.size a
  inb_S256x50x16_S256x1x16_0_29_0 : ∀ a, (![0, 29, 0] : Fin 3 → Nat) a + S256x1x16.size a ≤ S256x50x16.size a
  inb_S50x16x512_S1x16x512_29_0_0 : ∀ a, (![29, 0, 0] : Fin 3 → Nat) a + S1x16x512.size a ≤ S50x16x512.size a
  inb_S256x50x16_S256x1x16_0_30_0 : ∀ a, (![0, 30, 0] : Fin 3 → Nat) a + S256x1x16.size a ≤ S256x50x16.size a
  inb_S50x16x512_S1x16x512_30_0_0 : ∀ a, (![30, 0, 0] : Fin 3 → Nat) a + S1x16x512.size a ≤ S50x16x512.size a
  inb_S256x50x16_S256x1x16_0_31_0 : ∀ a, (![0, 31, 0] : Fin 3 → Nat) a + S256x1x16.size a ≤ S256x50x16.size a
  inb_S50x16x512_S1x16x512_31_0_0 : ∀ a, (![31, 0, 0] : Fin 3 → Nat) a + S1x16x512.size a ≤ S50x16x512.size a
  inb_S256x50x16_S256x1x16_0_32_0 : ∀ a, (![0, 32, 0] : Fin 3 → Nat) a + S256x1x16.size a ≤ S256x50x16.size a
  inb_S50x16x512_S1x16x512_32_0_0 : ∀ a, (![32, 0, 0] : Fin 3 → Nat) a + S1x16x512.size a ≤ S50x16x512.size a
  inb_S256x50x16_S256x1x16_0_33_0 : ∀ a, (![0, 33, 0] : Fin 3 → Nat) a + S256x1x16.size a ≤ S256x50x16.size a
  inb_S50x16x512_S1x16x512_33_0_0 : ∀ a, (![33, 0, 0] : Fin 3 → Nat) a + S1x16x512.size a ≤ S50x16x512.size a
  inb_S256x50x16_S256x1x16_0_34_0 : ∀ a, (![0, 34, 0] : Fin 3 → Nat) a + S256x1x16.size a ≤ S256x50x16.size a
  inb_S50x16x512_S1x16x512_34_0_0 : ∀ a, (![34, 0, 0] : Fin 3 → Nat) a + S1x16x512.size a ≤ S50x16x512.size a
  inb_S256x50x16_S256x1x16_0_35_0 : ∀ a, (![0, 35, 0] : Fin 3 → Nat) a + S256x1x16.size a ≤ S256x50x16.size a
  inb_S50x16x512_S1x16x512_35_0_0 : ∀ a, (![35, 0, 0] : Fin 3 → Nat) a + S1x16x512.size a ≤ S50x16x512.size a
  inb_S256x50x16_S256x1x16_0_36_0 : ∀ a, (![0, 36, 0] : Fin 3 → Nat) a + S256x1x16.size a ≤ S256x50x16.size a
  inb_S50x16x512_S1x16x512_36_0_0 : ∀ a, (![36, 0, 0] : Fin 3 → Nat) a + S1x16x512.size a ≤ S50x16x512.size a
  inb_S256x50x16_S256x1x16_0_37_0 : ∀ a, (![0, 37, 0] : Fin 3 → Nat) a + S256x1x16.size a ≤ S256x50x16.size a
  inb_S50x16x512_S1x16x512_37_0_0 : ∀ a, (![37, 0, 0] : Fin 3 → Nat) a + S1x16x512.size a ≤ S50x16x512.size a
  inb_S256x50x16_S256x1x16_0_38_0 : ∀ a, (![0, 38, 0] : Fin 3 → Nat) a + S256x1x16.size a ≤ S256x50x16.size a
  inb_S50x16x512_S1x16x512_38_0_0 : ∀ a, (![38, 0, 0] : Fin 3 → Nat) a + S1x16x512.size a ≤ S50x16x512.size a
  inb_S256x50x16_S256x1x16_0_39_0 : ∀ a, (![0, 39, 0] : Fin 3 → Nat) a + S256x1x16.size a ≤ S256x50x16.size a
  inb_S50x16x512_S1x16x512_39_0_0 : ∀ a, (![39, 0, 0] : Fin 3 → Nat) a + S1x16x512.size a ≤ S50x16x512.size a
  inb_S256x50x16_S256x1x16_0_40_0 : ∀ a, (![0, 40, 0] : Fin 3 → Nat) a + S256x1x16.size a ≤ S256x50x16.size a
  inb_S50x16x512_S1x16x512_40_0_0 : ∀ a, (![40, 0, 0] : Fin 3 → Nat) a + S1x16x512.size a ≤ S50x16x512.size a
  inb_S256x50x16_S256x1x16_0_41_0 : ∀ a, (![0, 41, 0] : Fin 3 → Nat) a + S256x1x16.size a ≤ S256x50x16.size a
  inb_S50x16x512_S1x16x512_41_0_0 : ∀ a, (![41, 0, 0] : Fin 3 → Nat) a + S1x16x512.size a ≤ S50x16x512.size a
  inb_S256x50x16_S256x1x16_0_42_0 : ∀ a, (![0, 42, 0] : Fin 3 → Nat) a + S256x1x16.size a ≤ S256x50x16.size a
  inb_S50x16x512_S1x16x512_42_0_0 : ∀ a, (![42, 0, 0] : Fin 3 → Nat) a + S1x16x512.size a ≤ S50x16x512.size a
  inb_S256x50x16_S256x1x16_0_43_0 : ∀ a, (![0, 43, 0] : Fin 3 → Nat) a + S256x1x16.size a ≤ S256x50x16.size a
  inb_S50x16x512_S1x16x512_43_0_0 : ∀ a, (![43, 0, 0] : Fin 3 → Nat) a + S1x16x512.size a ≤ S50x16x512.size a
  inb_S256x50x16_S256x1x16_0_44_0 : ∀ a, (![0, 44, 0] : Fin 3 → Nat) a + S256x1x16.size a ≤ S256x50x16.size a
  inb_S50x16x512_S1x16x512_44_0_0 : ∀ a, (![44, 0, 0] : Fin 3 → Nat) a + S1x16x512.size a ≤ S50x16x512.size a
  inb_S256x50x16_S256x1x16_0_45_0 : ∀ a, (![0, 45, 0] : Fin 3 → Nat) a + S256x1x16.size a ≤ S256x50x16.size a
  inb_S50x16x512_S1x16x512_45_0_0 : ∀ a, (![45, 0, 0] : Fin 3 → Nat) a + S1x16x512.size a ≤ S50x16x512.size a
  inb_S256x50x16_S256x1x16_0_46_0 : ∀ a, (![0, 46, 0] : Fin 3 → Nat) a + S256x1x16.size a ≤ S256x50x16.size a
  inb_S50x16x512_S1x16x512_46_0_0 : ∀ a, (![46, 0, 0] : Fin 3 → Nat) a + S1x16x512.size a ≤ S50x16x512.size a
  inb_S256x50x16_S256x1x16_0_47_0 : ∀ a, (![0, 47, 0] : Fin 3 → Nat) a + S256x1x16.size a ≤ S256x50x16.size a
  inb_S50x16x512_S1x16x512_47_0_0 : ∀ a, (![47, 0, 0] : Fin 3 → Nat) a + S1x16x512.size a ≤ S50x16x512.size a
  inb_S256x50x16_S256x1x16_0_48_0 : ∀ a, (![0, 48, 0] : Fin 3 → Nat) a + S256x1x16.size a ≤ S256x50x16.size a
  inb_S50x16x512_S1x16x512_48_0_0 : ∀ a, (![48, 0, 0] : Fin 3 → Nat) a + S1x16x512.size a ≤ S50x16x512.size a
  inb_S256x50x16_S256x1x16_0_49_0 : ∀ a, (![0, 49, 0] : Fin 3 → Nat) a + S256x1x16.size a ≤ S256x50x16.size a
  inb_S50x16x512_S1x16x512_49_0_0 : ∀ a, (![49, 0, 0] : Fin 3 → Nat) a + S1x16x512.size a ≤ S50x16x512.size a
  concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x50_d1 : Shape.Concatenates (S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: []) S256x50 1
  inb_S256x50_S256x50_0_0 : ∀ a, (![0, 0] : Fin 2 → Nat) a + S256x50.size a ≤ S256x50.size a
  h_S256x50 : 0 < S256x50.numel
  concatenates_S512x512_S512x50_S512x562_d1 : Shape.Concatenates [S512x512, S512x50] S512x562 1
  dot_S128x512_S512x800_S128x800_1_0_0_1_n_n_wf : DotDims.WF S128x512 S512x800 S128x800 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x512.size a
  hwx0_0 : ∀ i : grid0.Coords, EltTy.bits .f32 = 32 ∨ (Rect.block (s := S512x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x800.size a ≤ S512x800.size a
  hwx0_1 : ∀ i : grid0.Coords, EltTy.bits .f32 = 32 ∨ (Rect.block (s := S512x800) S512x800.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x800.size a ≤ S512x800.size a
  hwx0_2 : ∀ i : grid0.Coords, EltTy.bits .f32 = 32 ∨ (Rect.block (s := S512x800) S128x800.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x50x16.size a ≤ S512x50x16.size a
  hwx1_0 : ∀ i : grid1.Coords, EltTy.bits .f32 = 32 ∨ (Rect.block (s := S512x50x16) S256x50x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S50x16x512.size a ≤ S50x16x512.size a
  hwx1_1 : ∀ i : grid1.Coords, EltTy.bits .f32 = 32 ∨ (Rect.block (s := S50x16x512) S50x16x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x50.size a ≤ S512x50.size a
  hwx1_2 : ∀ i : grid1.Coords, EltTy.bits .f32 = 32 ∨ (Rect.block (s := S512x50) S256x50.size (cc1_transform_2 i) (hinb1_2 i)).WholeWords (EltTy.packing .f32)

variable [Facts₀]

def dot_S128x512_S512x800_S128x800_1_0_0_1_n_n : DotDims S128x512 S512x800 S128x800 where
  lhsContracting := [1]
  rhsContracting := [0]
  lhsNonContracting := [0]
  rhsNonContracting := [1]
  lhsBatch := []
  rhsBatch := []
  wf := dot_S128x512_S512x800_S128x800_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x800.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x800.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S256x50x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S50x16x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S256x50.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x512 : Shape := ⟨2, ![512, 512]⟩
abbrev S512x800 : Shape := ⟨2, ![512, 800]⟩
abbrev S512x50x16 : Shape := ⟨3, ![512, 50, 16]⟩
abbrev S512x1x50x16 : Shape := ⟨4, ![512, 1, 50, 16]⟩
abbrev S1x512x50x16 : Shape := ⟨4, ![1, 512, 50, 16]⟩
abbrev S512x512x50x16 : Shape := ⟨4, ![512, 512, 50, 16]⟩
abbrev S_ : Shape := ⟨0, ![]⟩
abbrev S512x512x50 : Shape := ⟨3, ![512, 512, 50]⟩
abbrev S512x50 : Shape := ⟨2, ![512, 50]⟩
abbrev S512x562 : Shape := ⟨2, ![512, 562]⟩

abbrev nBuf : Space → Nat
  | .hbm => 17
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x800, .f32⟩
  | .hbm, ⟨2, _⟩ => ⟨S512x800, .f32⟩
  | .hbm, ⟨3, _⟩ => ⟨S512x50x16, .f32⟩
  | .hbm, ⟨4, _⟩ => ⟨S512x1x50x16, .f32⟩
  | .hbm, ⟨5, _⟩ => ⟨S1x512x50x16, .f32⟩
  | .hbm, ⟨6, _⟩ => ⟨S512x512x50x16, .f32⟩
  | .hbm, ⟨7, _⟩ => ⟨S512x512x50x16, .f32⟩
  | .hbm, ⟨8, _⟩ => ⟨S512x512x50x16, .f32⟩
  | .hbm, ⟨9, _⟩ => ⟨S512x512x50x16, .f32⟩
  | .hbm, ⟨10, _⟩ => ⟨S_, .f32⟩
  | .hbm, ⟨11, _⟩ => ⟨S512x512x50, .f32⟩
  | .hbm, ⟨12, _⟩ => ⟨S512x512x50, .f32⟩
  | .hbm, ⟨13, _⟩ => ⟨S512x512x50, .f32⟩
  | .hbm, ⟨14, _⟩ => ⟨S_, .f32⟩
  | .hbm, ⟨15, _⟩ => ⟨S512x50, .f32⟩
  | .hbm, ⟨16, _⟩ => ⟨S512x562, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  shapeCasts_S512x800_S512x50x16 : S512x800.ShapeCasts S512x50x16
  bcast_S512x50x16_S512x1x50x16_0_2_3 : S512x50x16.BroadcastsInDim S512x1x50x16 (![0, 2, 3] : Fin 3 → Fin S512x1x50x16.rank)
  bcast_S512x50x16_S1x512x50x16_1_2_3 : S512x50x16.BroadcastsInDim S1x512x50x16 (![1, 2, 3] : Fin 3 → Fin S1x512x50x16.rank)
  bcast_S512x1x50x16_S512x512x50x16_0_1_2_3 : S512x1x50x16.BroadcastsInDim S512x512x50x16 (![0, 1, 2, 3] : Fin 4 → Fin S512x512x50x16.rank)
  bcast_S1x512x50x16_S512x512x50x16_0_1_2_3 : S1x512x50x16.BroadcastsInDim S512x512x50x16 (![0, 1, 2, 3] : Fin 4 → Fin S512x512x50x16.rank)
  reducesTo_S512x512x50x16_S512x512x50_d3 : S512x512x50x16.ReducesTo [3] S512x512x50
  h_S_ : 0 < S_.numel
  reducesTo_S512x512x50_S512x50_d1 : S512x512x50.ReducesTo [1] S512x50
  concatenates_S512x512_S512x50_S512x562_d1 : Shape.Concatenates [S512x512, S512x50] S512x562 1
  dot_S512x512_S512x800_S512x800_1_0_0_1_n_n_wf : DotDims.WF S512x512 S512x800 S512x800 [1] [0] [0] [1] [] []

variable [Facts₀]

def dot_S512x512_S512x800_S512x800_1_0_0_1_n_n : DotDims S512x512 S512x800 S512x800 where
  lhsContracting := [1]
  rhsContracting := [0]
  lhsNonContracting := [0]
  rhsNonContracting := [1]
  lhsBatch := []
  rhsBatch := []
  wf := dot_S512x512_S512x800_S512x800_1_0_0_1_n_n_wf

class Facts : Prop extends Facts₀ where

variable [Facts]
-- ==== Proof.Spec.lean ====
/-
  The function both programs compute, stated once over the extended reals with no program in sight.

  The inputs are a batch of 512 feature rows `x` (512 features each) and a weight matrix `W` (512 × 800). The
  activations are the plain matrix product `act = x · W`; its 800 columns are read as 50 channels of 16 coordinates,
  channel `k`'s coordinate `d` being column `16 k + d`. For two batch rows `b`, `b₂` and a channel `k` the distance is
  the L1 distance of the two 16-vectors, `l1dist b b₂ k = Σ_d |act b (k, d) − act b₂ (k, d)|`, and the feature of row `b` on
  channel `k` is `feat b k = Σ_{b₂} exp (− l1dist b b₂ k)`, summed over ALL 512 rows (the row itself included). The result
  is the 512 × 562 matrix whose first 512 columns are `x` and whose last 50 are the features.

  Nothing here needs the entries to be finite: the two programs differ only in the order and grouping of finite sums
  and in how they spell a negation, and addition on the extended reals is commutative and associative.
-/
import Idealize.ShloMosaic.Lib.ValueIdx
import Idealize.ShloMosaic.PureOps.Ideal

noncomputable section

namespace Cert.PairwiseL1

open Idealize.ShloMosaic Idealize.ShloMosaic.ValueIdx
open scoped BigOperators

/-- The absolute value on the extended reals: the larger of `z` and `−z`. -/
def eabs (z : EReal) : EReal := max z (-z)

/-- Column `16 k + d` of the activations: coordinate `d` of channel `k`. -/
def chan (k : Fin 50) (d : Fin 16) : Fin 800 :=
  ⟨k.val * 16 + d.val, by have hk := k.isLt; have hd := d.isLt; omega⟩

theorem chan_val (k : Fin 50) (d : Fin 16) : (chan k d).val = k.val * 16 + d.val := rfl

/-- The activations `x · W` at row `b`, column `c`. -/
def act (x : (⟨2, ![512, 512]⟩ : Shape).Idx → EReal) (W : (⟨2, ![512, 800]⟩ : Shape).Idx → EReal)
    (b : Fin 512) (c : Fin 800) : EReal :=
  ∑ j : Fin 512, x (ix2 b j) * W (ix2 j c)

/-- The L1 distance between rows `b` and `b₂` of an activation matrix, on channel `k`. -/
def l1dist (A : Fin 512 → Fin 800 → EReal) (b b₂ : Fin 512) (k : Fin 50) : EReal :=
  ∑ d : Fin 16, eabs (A b (chan k d) - A b₂ (chan k d))

/-- Row `b`'s feature on channel `k`: the sum over every row `b₂` of `exp (− l1dist b b₂ k)`. -/
def feat (A : Fin 512 → Fin 800 → EReal) (b : Fin 512) (k : Fin 50) : EReal :=
  ∑ b₂ : Fin 512, Ideal.exp (-(l1dist A b b₂ k))

/-- The result at row `r`, column `c`: `x` left of column 512, the features from there on. -/
def outAt (x : (⟨2, ![512, 512]⟩ : Shape).Idx → EReal) (W : (⟨2, ![512, 800]⟩ : Shape).Idx → EReal)
    (r : Fin 512) (c : Fin 562) : EReal :=
  if h : c.val < 512 then x (ix2 r ⟨c.val, h⟩)
  else feat (act x W) r ⟨c.val - 512, by have hc := c.isLt; omega⟩

/-- The whole result array. -/
def out (x : (⟨2, ![512, 512]⟩ : Shape).Idx → EReal) (W : (⟨2, ![512, 800]⟩ : Shape).Idx → EReal) :
    (⟨2, ![512, 562]⟩ : Shape).Idx → EReal :=
  fun i => outAt x W (i 0) (i 1)

end Cert.PairwiseL1

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.RefSide.lean ====
/-
  The reference program computes the specification.

  Its result is the concatenation, along the columns, of `x` and a 512 × 50 block. That block is read stage by stage:
  the `dot_general` is the activations `x · W`; the reshape to [512, 50, 16] reads column `16 k + d` at `(b, k, d)`
  (both positions are `800 b + 16 k + d` in row-major order); the two chains of broadcasts place row `b` along axis 0
  and row `b₂` along axis 1 of a [512, 512, 50, 16] array; the difference, the absolute value and the sum over the last
  axis give `l1dist b b₂ k` (the sum starts from the constant zero, which adds nothing); negation, exponential and the sum
  over axis 1 give `feat b k`.
-/
import proofs.«108706_j52140902973873_2_alg».proof.Proof.Gen.ReferenceIdeal.Read
import proofs.«108706_j52140902973873_2_alg».proof.Proof.Spec
import proofs.«108706_j52140902973873_2_alg».proof.Proof.LibDenseRows

noncomputable section

namespace Cert.ReferenceIdeal.RefValue

open Cert.ReferenceIdeal Cert.ReferenceIdeal.Gen Cert.ReferenceIdeal.Read Cert.PairwiseL1
open Idealize.ShloMosaic Idealize.ShloMosaic.ValueIdx
open scoped BigOperators

/-- The `dot_general` at row `r`, column `c` is the activation there. -/
theorem v0_apply (x0 : S512x512.Idx → EReal) (x1 : S512x800.Idx → EReal) (r : Fin 512) (c : Fin 800) :
    val_main_v0 (F := Ideal) x0 x1 (ix2 r c) = act x0 x1 r c := by
  rw [val_main_v0_apply]
  unfold act
  refine Finset.sum_congr rfl fun j _ => ?_
  have e1 : lidx_main_v0 (ix2 r c) j = ix2 r j :=
    funext fun a => Fin.ext (by match a with | ⟨0, _⟩ => rfl | ⟨1, _⟩ => rfl)
  have e2 : ridx_main_v0 (ix2 r c) j = ix2 j c :=
    funext fun a => Fin.ext (by match a with | ⟨0, _⟩ => rfl | ⟨1, _⟩ => rfl)
  rw [e1, e2]

/-- Position `(b, k, d)` of the reshaped activations is row `b`, column `16 k + d` of the matrix. -/
theorem idx_reshape (b : Fin 512) (k : Fin 50) (d : Fin 16) : idx_main_v1 (ix3 b k d) = ix2 b (chan k d) := by
  have hb := b.isLt; have hk := k.isLt; have hd := d.isLt
  funext a; apply Fin.ext
  match a with
  | ⟨0, _⟩ => show ((b.val * 50 + k.val) * 16 + d.val) / 800 = b.val; omega
  | ⟨1, _⟩ => show ((b.val * 50 + k.val) * 16 + d.val) % 800 = k.val * 16 + d.val; omega

/-- The reshaped activations at `(b, k, d)`. -/
theorem v1_apply (x0 : S512x512.Idx → EReal) (x1 : S512x800.Idx → EReal) (b : Fin 512) (k : Fin 50) (d : Fin 16) :
    val_main_v1 (F := Ideal) x0 x1 (ix3 b k d) = act x0 x1 b (chan k d) := by
  rw [val_main_v1_apply, idx_reshape, v0_apply]

/-- Through the broadcasts, the minuend at `(b, b₂, k, d)` is row `b`'s entry … -/
theorem idx_left (b b₂ : Fin 512) (k : Fin 50) (d : Fin 16) :
    idx_main_v2 (idx_main_v4 (idx_main_v8 (ix3 b b₂ k) d)) = ix3 b k d :=
  funext fun a => Fin.ext (by match a with | ⟨0, _⟩ => rfl | ⟨1, _⟩ => rfl | ⟨2, _⟩ => rfl)

/-- … and the subtrahend is row `b₂`'s. -/
theorem idx_right (b b₂ : Fin 512) (k : Fin 50) (d : Fin 16) :
    idx_main_v3 (idx_main_v5 (idx_main_v8 (ix3 b b₂ k) d)) = ix3 b₂ k d :=
  funext fun a => Fin.ext (by match a with | ⟨0, _⟩ => rfl | ⟨1, _⟩ => rfl | ⟨2, _⟩ => rfl)

/-- The sum over the last axis at `(b, b₂, k)` is the L1 distance of rows `b` and `b₂` on channel `k`. -/
theorem v8_apply (x0 : S512x512.Idx → EReal) (x1 : S512x800.Idx → EReal) (b b₂ : Fin 512) (k : Fin 50) :
    val_main_v8 (F := Ideal) x0 x1 (ix3 b b₂ k) = l1dist (act x0 x1) b b₂ k := by
  rw [val_main_v8_apply, val_main_cst_apply, Ideal.ofBits_def, Ideal.ofBits_zero_f32, zero_add]
  unfold l1dist
  refine Finset.sum_congr rfl fun d _ => ?_
  rw [val_main_v7_apply, val_main_v6_apply, val_main_v4_apply, val_main_v5_apply, val_main_v2_apply, val_main_v3_apply,
    idx_left, idx_right, v1_apply, v1_apply]
  rfl

/-- The summand of the outer sum at `(b, k)`, index `b₂`, sits at `(b, b₂, k)`. -/
theorem idx_outer (b b₂ : Fin 512) (k : Fin 50) : idx_main_v11 (ix2 b k) b₂ = ix3 b b₂ k :=
  funext fun a => Fin.ext (by match a with | ⟨0, _⟩ => rfl | ⟨1, _⟩ => rfl | ⟨2, _⟩ => rfl)

/-- The sum over axis 1 at `(b, k)` is row `b`'s feature on channel `k`. -/
theorem v11_apply (x0 : S512x512.Idx → EReal) (x1 : S512x800.Idx → EReal) (b : Fin 512) (k : Fin 50) :
    val_main_v11 (F := Ideal) x0 x1 (ix2 b k) = feat (act x0 x1) b k := by
  rw [val_main_v11_apply, val_main_cst_0_apply, Ideal.ofBits_def, Ideal.ofBits_zero_f32, zero_add]
  unfold feat
  refine Finset.sum_congr rfl fun b₂ _ => ?_
  rw [val_main_v10_apply, val_main_v9_apply, idx_outer, v8_apply]
  rfl

/-- The reference's result is the specification of its two arguments. -/
theorem result_eq (x0 : S512x512.Idx → EReal) (x1 : S512x800.Idx → EReal) :
    val_main_v12 (F := Ideal) x0 x1 = out x0 x1 := by
  funext i
  obtain ⟨r, c, rfl⟩ : ∃ (r : Fin 512) (c : Fin 562), i = ix2 r c := ⟨i 0, i 1, eq_ix2 i⟩
  show val_main_v12 (F := Ideal) x0 x1 (ix2 r c) = outAt x0 x1 r c
  unfold val_main_v12 outAt
  have hc := c.isLt
  by_cases h : c.val < 512
  · rw [dif_pos h]
    exact Cert.DenseRows.concat_cols_left x0 _ concatenates_S512x512_S512x50_S512x562_d1 r c h
  · rw [dif_neg h]
    have h' : c.val - 512 < 50 := by omega
    rw [Cert.DenseRows.concat_cols_right x0 _ concatenates_S512x512_S512x50_S512x562_d1 r c (by omega) h']
    exact v11_apply x0 x1 r ⟨c.val - 512, h'⟩

end Cert.ReferenceIdeal.RefValue

end
-- ==== Proof.Region0.lean ====
/-
  The first kernel region computes the activations.

  Its grid has four points. Point `t` reads rows `128 t … 128 t + 127` of `x` and the whole weight matrix `W`, multiplies
  them into a zero accumulator, and writes rows `128 t … 128 t + 127` of the output. So each point writes back its block
  of the one array `x · W`, the four blocks tile the 512 rows, and the output array ends holding `x · W`.
-/
import proofs.«108706_j52140902973873_2_alg».proof.Proof.Gen.KernelIdeal.Frame
import proofs.«108706_j52140902973873_2_alg».proof.Proof.LibDenseRows
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem zero_offsets : (![0, 0] : Fin 2 → Nat) = fun _ => 0 := funext fun a => by fin_cases a <;> rfl

/-- The contraction keeps the left operand's row … -/
theorem lhs_row (j : S128x800.Idx) (k : dot_S128x512_S512x800_S128x800_1_0_0_1_n_n.contr.Idx) :
    (dot_S128x512_S512x800_S128x800_1_0_0_1_n_n.lhsIdx j k 0).val = (j 0).val := by
  unfold DotDims.lhsIdx
  rw [dif_neg (show ¬(0 : Fin S128x512.rank) ∈ dot_S128x512_S512x800_S128x800_1_0_0_1_n_n.lhsBatch by decide),
    dif_pos (show (0 : Fin S128x512.rank) ∈ dot_S128x512_S512x800_S128x800_1_0_0_1_n_n.lhsNonContracting by decide)]
  rfl

/-- … and the right operand's column. -/
theorem rhs_col (j : S128x800.Idx) (k : dot_S128x512_S512x800_S128x800_1_0_0_1_n_n.contr.Idx) :
    (dot_S128x512_S512x800_S128x800_1_0_0_1_n_n.rhsIdx j k 1).val = (j 1).val := by
  unfold DotDims.rhsIdx
  rw [dif_neg (show ¬(1 : Fin S512x800.rank) ∈ dot_S128x512_S512x800_S128x800_1_0_0_1_n_n.rhsBatch by decide),
    dif_pos (show (1 : Fin S512x800.rank) ∈ dot_S128x512_S512x800_S128x800_1_0_0_1_n_n.rhsNonContracting by decide)]
  rfl

/-- What the body leaves in the output block, at row `r` and column `c`: the matrix product of the row block and the
    whole weight matrix into a zero accumulator. -/
theorem block_apply (x0 : Vec Ideal S128x512 .f32) (x1 : Vec Ideal S512x800 .f32) (r : Fin 128) (c : Fin 800) :
    out0_2 (F := Ideal) x0 x1 (ix2 r c) = ∑ j : Fin 512, x0 (ix2 r j) * x1 (ix2 j c) := by
  unfold out0_2
  rw [View.canon_unit_zero zero_offsets]
  simp only [View.ld_unit_zero (S := S128x512) zero_offsets, View.ld_unit_zero (S := S512x800) zero_offsets]
  unfold k0_pay1
  exact Cert.DenseRows.matmul_zero_plain_apply dot_S128x512_S512x800_S128x800_1_0_0_1_n_n rfl rfl rfl rfl lhs_row rhs_col x0 x1 r c

/-- The whole product `A · B` as one array. -/
def prod (A : S512x512.Idx → EReal) (B : S512x800.Idx → EReal) : S512x800.Idx → EReal :=
  fun i => ∑ j : Fin 512, A (ix2 (i 0) j) * B (ix2 j (i 1))

/-- A block whose rows are rows of `A` and whose right operand is `B` holds the corresponding entries of `A · B`. -/
theorem block_read (x0 : Vec Ideal S128x512 .f32) (x1 : Vec Ideal S512x800 .f32)
    (A : S512x512.Idx → EReal) (B : S512x800.Idx → EReal) (y : S128x800.Idx) (i : S512x800.Idx)
    (h0 : ∀ j : Fin 512, x0 (ix2 (y 0) j) = A (ix2 (i 0) j))
    (h1 : ∀ j : Fin 512, x1 (ix2 j (y 1)) = B (ix2 j (i 1))) :
    out0_2 (F := Ideal) x0 x1 y = prod A B i := by
  obtain ⟨r, cc, rfl⟩ : ∃ (r : Fin 128) (cc : Fin 800), y = ix2 r cc := ⟨y 0, y 1, eq_ix2 y⟩
  rw [block_apply]
  unfold prod
  exact Finset.sum_congr rfl fun j _ => congrArg₂ (· * ·) (h0 j) (h1 j)

section
variable (V : (c : Dev nD) → (b : Ref sig .tc) → Buf (Elt Ideal) ((c : Thread nD τ).loc b))

/-- The printed index maps over the four grid points: the row block moves with the point, the weight matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the product of the two argument arrays as the region finds them. -/
theorem flushed_eq (c : Dev nD) (t : Fin cfg0.N) :
    (dat0 V c).flushed 2 t = ((cfg0.win 2).blk t).view.read (Elt Ideal) (prod (V c main_arg0) (V c main_arg1)) := by
  show (cfg0.win 2).cut (grid0.coords t) ((dat0 V c).after 2 t) = _
  rw [after0_2]
  obtain ⟨e0, e1, e2, e3, e4, e5⟩ := idx_facts t
  funext y
  refine block_read (iblk0 V c 0 t) (iblk0 V c 1 t) (V c main_arg0) (V c main_arg1) y (((cfg0.win 2).blk t).view.emb y)
    (fun j => ?_) (fun j => ?_)
  · show V c main_arg0 (((cfg0.win 0).blk t).view.emb (ix2 (y 0) j)) = _
    refine congrArg (V c main_arg0) (funext fun a => Fin.ext ?_)
    match a with
    | ⟨0, _⟩ =>
      show win0_0.index t (0 : Fin 2) * 128 + 1 * (y 0).val = win0_2.index t (0 : Fin 2) * 128 + 1 * (y 0).val
      omega
    | ⟨1, _⟩ =>
      show win0_0.index t (1 : Fin 2) * 512 + 1 * j.val = j.val
      omega
  · show V c main_arg1 (((cfg0.win 1).blk t).view.emb (ix2 j (y 1))) = _
    refine congrArg (V c main_arg1) (funext fun a => Fin.ext ?_)
    match a with
    | ⟨0, _⟩ =>
      show win0_1.index t (0 : Fin 2) * 512 + 1 * j.val = j.val
      omega
    | ⟨1, _⟩ =>
      show win0_1.index t (1 : Fin 2) * 800 + 1 * (y 1).val = win0_2.index t (1 : Fin 2) * 800 + 1 * (y 1).val
      omega

/-- An index of the product array is in point `t`'s output block iff each coordinate is in the block's range. -/
theorem mem_blk (t : Fin cfg0.N) (i : S512x800.Idx) :
    i ∈ ((cfg0.win 2).blk t).view.set ↔ ∀ a : Fin 2, win0_2.index t a * S128x800.size a ≤ (i a).val
      ∧ (i a).val < win0_2.index t a * S128x800.size a + S128x800.size a := by
  show i ∈ ((View.whole main_v0).slice (win0_2.rect t)).set ↔ _
  rw [View.set_slice_whole, Rect.mem_set_unit]
  exact Iff.rfl

/-- The four output blocks of 128 rows tile the 512 rows: row `r` is in the block of point `r / 128`. -/
theorem cover (i : S512x800.Idx) : ∃ t : Fin cfg0.N, (cfg0.win 2).flush t = true ∧ i ∈ ((cfg0.win 2).blk t).view.set := by
  have hi0 : (i 0).val < 512 := (i 0).isLt
  have hi1 : (i 1).val < 800 := (i 1).isLt
  have hN : cfg0.N = 4 := N_0
  refine ⟨⟨(i 0).val / 128, by rw [hN]; omega⟩, flush0_2 _, ?_⟩
  rw [mem_blk]
  obtain ⟨e0, e1, e2, e3, e4, e5⟩ := idx_facts ⟨(i 0).val / 128, by rw [hN]; omega⟩
  intro a
  match a with
  | ⟨0, _⟩ =>
    show win0_2.index ⟨(i 0).val / 128, _⟩ (0 : Fin 2) * 128 ≤ (i 0).val
      ∧ (i 0).val < win0_2.index ⟨(i 0).val / 128, _⟩ (0 : Fin 2) * 128 + 128
    rw [e4]; show (i 0).val / 128 * 128 ≤ (i 0).val ∧ (i 0).val < (i 0).val / 128 * 128 + 128; omega
  | ⟨1, _⟩ =>
    show win0_2.index ⟨(i 0).val / 128, _⟩ (1 : Fin 2) * 800 ≤ (i 1).val
      ∧ (i 1).val < win0_2.index ⟨(i 0).val / 128, _⟩ (1 : Fin 2) * 800 + 800
    rw [e5]; omega

/-- After the first region its output array holds the product of the two argument arrays as the region found them. -/
theorem final (c : Dev nD) : (dat0 V c).arrAt 2 cfg0.N = prod (V c main_arg0) (V c main_arg1) :=
  (dat0 V c).arrAt_eq_of_cover 2 (prod (V c main_arg0) (V c main_arg1)) (fun t _ => flushed_eq V c t) (cover)

end

end Cert.KernelIdeal.Region0

end
-- ==== Proof.LibPairLayout.lean ====
/-
  Rank-3 layout operations read at an index given by coordinates, for a pairwise difference `u[p, d] − v[d, q]` laid out
  as `[a, c, n]`: a middle unit axis dropped (`[a, 1, c]` to `[a, c]`), a trailing unit axis added (`[a, c]` to `[a, c, 1]`),
  that trailing axis broadcast (`[a, c, 1]` to `[a, c, n]`), a leading unit axis broadcast (`[1, c, n]` to `[a, c, n]`),
  the index a reduction over the middle axis inserts (`[a, c, n]` to `[a, n]`), the one a reduction over the last axis of
  a matrix inserts (`[a, n]` to `[a]`), and a rank-3 transpose that brings the leading axis last.
-/
import Idealize.ShloMosaic.Lib.ValueLayout
import Idealize.ShloMosaic.PureOps.Ideal.Laws

namespace Cert.PairLayout

open Idealize.ShloMosaic Idealize.ShloMosaic.ValueIdx

variable {α : Type}

/-- An `[a, 1, c]` array cast to `[a, c]` reads, at `(p, d)`, the operand at `(p, 0, d)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (d : Fin c) :
    shapeCast ⟨2, ![a, c]⟩ x h (ix2 p d) = x (ix3 p (0 : Fin 1) d) :=
  shapeCast_apply x h _ _ (by
    rw [Shape.rowMajor_val_three, Shape.rowMajor_val_two]
    show (p.val * 1 + 0) * c + d.val = p.val * c + d.val
    rw [Nat.mul_one, Nat.add_zero])

/-- An `[a, c]` array cast to `[a, c, 1]` reads, at `(p, d, u)`, the operand at `(p, d)`. -/
theorem shapeCast_ac_ac1_apply {a c : ℕ} (x : (⟨2, ![a, c]⟩ : Shape).Idx → α)
    (h : (⟨2, ![a, c]⟩ : Shape).ShapeCasts ⟨3, ![a, c, 1]⟩) (p : Fin a) (d : Fin c) (u : Fin 1) :
    shapeCast ⟨3, ![a, c, 1]⟩ x h (ix3 p d u) = x (ix2 p d) :=
  shapeCast_apply x h _ _ (by
    have hu : u.val = 0 := by omega
    rw [Shape.rowMajor_val_three, Shape.rowMajor_val_two]
    show p.val * c + d.val = (p.val * c + d.val) * 1 + u.val
    rw [hu, Nat.mul_one, Nat.add_zero])

/-- An `[a, c, 1]` array broadcast to `[a, c, n]` reads, at `(p, d, q)`, the operand at `(p, d, 0)`. -/
theorem broadcastTo_ac1_acn_apply {a c n : ℕ} (v : (⟨3, ![a, c, 1]⟩ : Shape).Idx → α)
    (h : (⟨3, ![a, c, 1]⟩ : Shape).Broadcasts ⟨3, ![a, c, n]⟩) (p : Fin a) (d : Fin c) (q : Fin n) :
    broadcastTo ⟨3, ![a, c, n]⟩ v h (ix3 p d q) = v (ix3 p d (0 : Fin 1)) := by
  refine broadcastTo_apply v h (ix3 p d q) (ix3 p d (0 : Fin 1)) fun ax => ?_
  match ax with
  | ⟨0, _⟩ =>
    show p.val = if a = 1 then 0 else p.val
    split
    · have := p.isLt; omega
    · rfl
  | ⟨1, _⟩ =>
    show d.val = if c = 1 then 0 else d.val
    split
    · have := d.isLt; omega
    · rfl
  | ⟨2, _⟩ => rfl

/-- A `[1, c, n]` array broadcast to `[a, c, n]` reads, at `(p, d, q)`, the operand at `(0, d, q)`. -/
theorem broadcastTo_1cn_acn_apply {a c n : ℕ} (v : (⟨3, ![1, c, n]⟩ : Shape).Idx → α)
    (h : (⟨3, ![1, c, n]⟩ : Shape).Broadcasts ⟨3, ![a, c, n]⟩) (p : Fin a) (d : Fin c) (q : Fin n) :
    broadcastTo ⟨3, ![a, c, n]⟩ v h (ix3 p d q) = v (ix3 (0 : Fin 1) d q) := by
  refine broadcastTo_apply v h (ix3 p d q) (ix3 (0 : Fin 1) d q) fun ax => ?_
  match ax with
  | ⟨0, _⟩ => rfl
  | ⟨1, _⟩ =>
    show d.val = if c = 1 then 0 else d.val
    split
    · have := d.isLt; omega
    · rfl
  | ⟨2, _⟩ =>
    show q.val = if n = 1 then 0 else q.val
    split
    · have := q.isLt; omega
    · rfl

/-- The source index a reduction of `[a, c, n]` over its middle axis visits for result index `(p, q)` and
    coordinate `d` is `(p, d, q)`. -/
theorem lift_middle {a c n : ℕ} (h : (⟨3, ![a, c, n]⟩ : Shape).Reduces [(1 : Fin 3)] ⟨2, ![a, n]⟩)
    (p : Fin a) (q : Fin n) (d : Fin c) : h.lift (ix2 p q) d = ix3 p d q :=
  funext fun ax => Fin.ext (by
    match ax with
    | ⟨0, _⟩ => rfl
    | ⟨1, _⟩ => rfl
    | ⟨2, _⟩ => rfl)

/-- The source index a reduction of `[a, n]` over its columns visits for row `p` and coordinate `q` is `(p, q)`. -/
theorem lift_cols {a n : ℕ} (h : (⟨2, ![a, n]⟩ : Shape).Reduces [(1 : Fin 2)] ⟨1, ![a]⟩)
    (p : Fin a) (q : Fin n) : h.lift (ix1 p) q = ix2 p q :=
  funext fun ax => Fin.ext (by
    match ax with
    | ⟨0, _⟩ => rfl
    | ⟨1, _⟩ => rfl)

/-- The lane reduction of `[a, c, n]` over its middle axis from the zero word, at `(p, q)`: the sum over `d` of the
    source at `(p, d, q)`. -/
theorem middleSum_apply {a c n : ℕ} (src : FVec Ideal ⟨3, ![a, c, n]⟩ .f32)
    (h : (⟨3, ![a, c, n]⟩ : Shape).Reduces [(1 : Fin 3)] ⟨2, ![a, n]⟩)
    (hφ : FKind.Formats .f32) (hacc : (0x00000000#32 : BitVec 32) = FKind.add.neutral .f32 hφ) (p : Fin a) (q : Fin n) :
    multiReduction .add [(1 : Fin 3)] ⟨2, ![a, n]⟩ src 0x00000000#32 h hφ hacc (ix2 p q) = ∑ d : Fin c, src (ix3 p d q) :=
  (Ideal.multiReduction_add_single src 0x00000000#32 h hφ hacc (ix2 p q)).trans
    (Finset.sum_congr rfl fun d _ => congrArg src (lift_middle h p q d))

/-- An `[m, a, b]` array transposed by the permutation `[1, 2, 0]` (result axes are source axes 1, 2, 0) reads, at
    `(i, j, k)`, the operand at `(k, i, j)`. -/
theorem transpose_ix3_120_apply {m a b : ℕ} (x : (⟨3, ![m, a, b]⟩ : Shape).Idx → α)
    (h : (⟨3, ![m, a, b]⟩ : Shape).Transposes [1, 2, 0] ⟨3, ![a, b, m]⟩) (i : Fin a) (j : Fin b) (k : Fin m) :
    transpose ⟨3, ![a, b, m]⟩ [1, 2, 0] x h (ix3 i j k) = x (ix3 k i j) :=
  transpose_apply _ x h _ _ fun c => match c with | ⟨0, _⟩ => rfl | ⟨1, _⟩ => rfl | ⟨2, _⟩ => rfl

end Cert.PairLayout
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Column.lean ====
/-
  One column of the second kernel's body, read at the ideal values.

  The body works channel by channel. For channel `k` it reads the slice `a = act₁[:, k, :]` of the query block (256 rows
  of 16 coordinates) and the slice `b = act₂ᵀ[k, :, :]` of the key array (16 coordinates of 512 rows), and computes the
  column whose row `p` is `Σ_q exp (0 − Σ_d |a[p, d] − b[d, q]|)`.
-/
import proofs.«108706_j52140902973873_2_alg».proof.Proof.Gen.KernelIdeal.Skeleton
import proofs.«108706_j52140902973873_2_alg».proof.Proof.LibPairLayout
import proofs.«108706_j52140902973873_2_alg».proof.Proof.LibColumnLayout
import proofs.«108706_j52140902973873_2_alg».proof.Proof.LibDenseRows

noncomputable section

namespace Cert.KernelIdeal.Column

open Cert.KernelIdeal Cert.KernelIdeal.Gen Cert.PairLayout
open Idealize.ShloMosaic Idealize.ShloMosaic.ValueIdx
open scoped BigOperators

/-- The vector exponential and absolute value at an index, at the ideal values. -/
theorem exp_apply {s : Shape} {φ : FTy} (x : FVec Ideal s φ) (i : s.Idx) : exp x i = Ideal.exp (x i) := rfl
theorem absf_apply {s : Shape} {φ : FTy} (x : FVec Ideal s φ) (i : s.Idx) : absf x i = FloatOps.absf (F := Ideal) (x i) := rfl

/-- One column of the body at row `p`. The body takes channel `k`'s slice `a` of the query block (`[256, 1, 16]`) and
    its slice `b` of the key array (`[1, 16, 512]`), lays `a[p, d]` along a new last axis and `b[d, q]` along a new
    first axis, and forms `|a[p, d] − b[d, q]|`; the sum over `d` (the middle axis), the difference from the zero
    constant, the exponential, and the sum over `q` (the lanes), kept as a column, give the entry of row `p`. -/
theorem column_apply (a : Vec Ideal S256x1x16 .f32) (b : Vec Ideal S1x16x512 .f32) (p : Fin 256) (u : Fin 1) :
    k1_pay2 (F := Ideal) a b (ix2 p u)
      = ∑ q : Fin 512, Ideal.exp (Ideal.ofBits .f32 0x00000000#32
          - ∑ d : Fin 16, FloatOps.absf (F := Ideal) (φ := .f32) (a (ix3 p (0 : Fin 1) d) - b (ix3 (0 : Fin 1) d q))) := by
  unfold k1_pay2
  dsimp only
  refine (Cert.ColumnLayout.shapeCast_a_a1_apply _ shapeCasts_S256_S256x1 p u).trans ?_
  refine (Cert.DenseRows.laneSum_apply _ reduces_S256x512_S256 (.inl rfl) rfl (fun r k => lift_cols _ r k) p).trans ?_
  refine Finset.sum_congr rfl fun q _ => ?_
  rw [exp_apply, subf_apply, broadcast_apply, Ideal.ofBits_def]
  refine congrArg (fun z => Ideal.exp (Ideal.ofBits .f32 0x00000000#32 - z))
    ((middleSum_apply _ reduces_S256x16x512_S256x512 (.inl rfl) rfl p q).trans (Finset.sum_congr rfl fun d _ => ?_))
  rw [absf_apply, subf_apply, broadcastTo_ac1_acn_apply, broadcastTo_1cn_acn_apply, shapeCast_ac_ac1_apply,
    shapeCast_a1c_ac_apply, shapeCast_ab_1ab_apply, shapeCast_1ab_ab_apply]

end Cert.KernelIdeal.Column

end
-- ==== Proof.Region1.lean ====
/-
  The second kernel region computes the features from the activations.

  Its grid has two points. Point `t` reads rows `256 t … 256 t + 255` of the query-side activations (`[512, 50, 16]`) and
  the whole key-side array (`[50, 16, 512]`), and writes rows `256 t … 256 t + 255` of the `[512, 50]` output. The body is
  fifty copies of one column computation, one per channel, joined side by side in a single store; whatever way the
  printed body is cut into parts, column `k` is the same function of channel `k`'s two slices. Each point therefore
  writes back its block of one array, the two blocks tile the 512 rows, and the output array ends holding that array.
-/
import proofs.«108706_j52140902973873_2_alg».proof.Proof.Gen.KernelIdeal.Frame
import proofs.«108706_j52140902973873_2_alg».proof.Proof.Column
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem zero_offsets : (![0, 0] : Fin 2 → Nat) = fun _ => 0 := funext fun a => by fin_cases a <;> rfl

/-- Channel `k`'s slice of the query block `[256, 50, 16]`: all rows, channel `k`, all coordinates. -/
theorem inb_query (k : Fin 50) : ∀ a, (![0, k.val, 0] : Fin 3 → Nat) a + S256x1x16.size a ≤ S256x50x16.size a := fun a => by
  have hk := k.isLt
  match a with
  | ⟨0, _⟩ => show 0 + 256 ≤ 256; omega
  | ⟨1, _⟩ => show k.val + 1 ≤ 50; omega
  | ⟨2, _⟩ => show 0 + 16 ≤ 16; omega
abbrev rQuery (k : Fin 50) : Rect S256x50x16 := Rect.unit (s := S256x50x16) ![0, k.val, 0] S256x1x16.size (inb_query k)

/-- Channel `k`'s slice of the key array `[50, 16, 512]`: channel `k`, all coordinates, all rows. -/
theorem inb_key (k : Fin 50) : ∀ a, (![k.val, 0, 0] : Fin 3 → Nat) a + S1x16x512.size a ≤ S50x16x512.size a := fun a => by
  have hk := k.isLt
  match a with
  | ⟨0, _⟩ => show k.val + 1 ≤ 50; omega
  | ⟨1, _⟩ => show 0 + 16 ≤ 16; omega
  | ⟨2, _⟩ => show 0 + 512 ≤ 512; omega
abbrev rKey (k : Fin 50) : Rect S50x16x512 := Rect.unit (s := S50x16x512) ![k.val, 0, 0] S1x16x512.size (inb_key k)

section
variable {F : FTy → Type} [FloatOps F]

/-- Column `k` of the output block: the body's column function of channel `k`'s two slices. -/
def column (x0 : Vec F S256x50x16 .f32) (x1 : Vec F S50x16x512 .f32) (k : Fin 50) : S256x1.Idx → F .f32 :=
  k1_pay2 (View.ld x0 (rQuery k)) (View.ld x1 (rKey k))

/-- Fifty columns of one row each side by side fill the 50 columns of the block. -/
theorem columns_concat (x0 : Vec F S256x50x16 .f32) (x1 : Vec F S50x16x512 .f32) :
    Shape.Concatenates ((List.ofFn fun k : Fin 50 => (⟨S256x1, column x0 x1 k⟩ : (s : Shape) × (s.Idx → F .f32))).map (·.1))
      S256x50 (1 : Fin 2) :=
  concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x50_d1

/-- The body's one store: the 50 columns side by side. However the printed body is cut into parts, every column is the
    same function of its channel's two slices. -/
theorem out_eq (x0 : Vec F S256x50x16 .f32) (x1 : Vec F S50x16x512 .f32) :
    out1_2 (F := F) x0 x1 = View.canon [⟨r1_100, concatenate S256x50 1
      (List.ofFn fun k : Fin 50 => (⟨S256x1, column x0 x1 k⟩ : (s : Shape) × (s.Idx → F .f32)))
      (columns_concat x0 x1)⟩] := rfl
end

/-- What the body leaves in the output block at row `p`, channel `k`: the sum over the 512 key rows `q` of
    `exp (0 − Σ_d |query[p, k, d] − key[k, d, q]|)`. -/
theorem block_apply (x0 : Vec Ideal S256x50x16 .f32) (x1 : Vec Ideal S50x16x512 .f32) (p : Fin 256) (k : Fin 50) :
    out1_2 (F := Ideal) x0 x1 (ix2 p k)
      = ∑ q : Fin 512, Ideal.exp (Ideal.ofBits .f32 0x00000000#32
          - ∑ d : Fin 16, FloatOps.absf (F := Ideal) (φ := .f32) (x0 (ix3 p k d) - x1 (ix3 k d q))) := by
  rw [out_eq, View.canon_unit_zero zero_offsets]
  refine (concatenate_ofFn_unit_apply (t := S256x50) (s₁ := S256x1) (1 : Fin 2) (fun k : Fin 50 => column x0 x1 k)
    (columns_concat x0 x1) rfl rfl
    (ix2 p k) k rfl (ix2 p (0 : Fin 1)) (fun b hb => ?_)).trans ?_
  · match b with
    | ⟨0, _⟩ => rfl
    | ⟨1, _⟩ => exact absurd rfl hb
  · unfold column
    rw [Column.column_apply]
    refine Finset.sum_congr rfl fun q _ => congrArg (fun z => Ideal.exp (Ideal.ofBits .f32 0x00000000#32 - z))
      (Finset.sum_congr rfl fun d _ => ?_)
    have hq : (rQuery k).idx (ix3 p (0 : Fin 1) d) = ix3 p k d :=
      funext fun a => Fin.ext (by
        match a with
        | ⟨0, _⟩ => show 0 + 1 * p.val = p.val; omega
        | ⟨1, _⟩ => show k.val + 1 * 0 = k.val; omega
        | ⟨2, _⟩ => show 0 + 1 * d.val = d.val; omega)
    have hk : (rKey k).idx (ix3 (0 : Fin 1) d q) = ix3 k d q :=
      funext fun a => Fin.ext (by
        match a with
        | ⟨0, _⟩ => show k.val + 1 * 0 = k.val; omega
        | ⟨1, _⟩ => show 0 + 1 * d.val = d.val; omega
        | ⟨2, _⟩ => show 0 + 1 * q.val = q.val; omega)
    exact congrArg₂ (fun u v => FloatOps.absf (F := Ideal) (φ := .f32) (x0 u - x1 v)) hq hk

/-- The features of every row against every row, as one array over the query-side activations `A` (`[512, 50, 16]`)
    and the key-side activations `B` (`[50, 16, 512]`). -/
def pairFeat (A : S512x50x16.Idx → EReal) (B : S50x16x512.Idx → EReal) : S512x50.Idx → EReal :=
  fun i => ∑ q : Fin 512, Ideal.exp (Ideal.ofBits .f32 0x00000000#32
    - ∑ d : Fin 16, FloatOps.absf (F := Ideal) (φ := .f32) (A (ix3 (i 0) (i 1) d) - B (ix3 (i 1) d q)))

/-- `pairFeat` at row `r`, channel `k`. -/
theorem pairFeat_apply (A : S512x50x16.Idx → EReal) (B : S50x16x512.Idx → EReal) (r : Fin 512) (k : Fin 50) :
    pairFeat A B (ix2 r k) = ∑ q : Fin 512, Ideal.exp (Ideal.ofBits .f32 0x00000000#32
      - ∑ d : Fin 16, FloatOps.absf (F := Ideal) (φ := .f32) (A (ix3 r k d) - B (ix3 k d q))) := rfl

/-- A block whose rows are rows of `A` and whose key array is `B` holds the corresponding entries of `pairFeat A B`. -/
theorem block_read (x0 : Vec Ideal S256x50x16 .f32) (x1 : Vec Ideal S50x16x512 .f32)
    (A : S512x50x16.Idx → EReal) (B : S50x16x512.Idx → EReal) (y : S256x50.Idx) (i : S512x50.Idx)
    (h0 : ∀ d : Fin 16, x0 (ix3 (y 0) (y 1) d) = A (ix3 (i 0) (i 1) d))
    (h1 : ∀ (d : Fin 16) (q : Fin 512), x1 (ix3 (y 1) d q) = B (ix3 (i 1) d q)) :
    out1_2 (F := Ideal) x0 x1 y = pairFeat A B i := by
  obtain ⟨p, k, rfl⟩ : ∃ (p : Fin 256) (k : Fin 50), y = ix2 p k := ⟨y 0, y 1, eq_ix2 y⟩
  rw [block_apply]
  unfold pairFeat
  exact Finset.sum_congr rfl fun q _ => congrArg (fun z => Ideal.exp (Ideal.ofBits .f32 0x00000000#32 - z))
    (Finset.sum_congr rfl fun d _ => congrArg₂ (fun u v => FloatOps.absf (F := Ideal) (φ := .f32) (u - v)) (h0 d) (h1 d q))

section
variable (V : (c : Dev nD) → (b : Ref sig .tc) → Buf (Elt Ideal) ((c : Thread nD τ).loc b))

/-- The printed index maps over the two grid points: the query block moves with the point, the key array stays. -/
theorem idx_facts : ∀ t : Fin cfg1.N, win1_0.index t (0 : Fin 3) = t.val ∧ win1_0.index t (1 : Fin 3) = 0
    ∧ win1_0.index t (2 : Fin 3) = 0
    ∧ win1_1.index t (0 : Fin 3) = 0 ∧ win1_1.index t (1 : Fin 3) = 0 ∧ win1_1.index t (2 : Fin 3) = 0
    ∧ win1_2.index t (0 : Fin 2) = t.val ∧ win1_2.index t (1 : Fin 2) = 0 :=
  (by decide +kernel : ∀ t : Fin grid1.N, _)

/-- What grid point `t` writes back is block `t` of `pairFeat` of the two input arrays as the region finds them. -/
theorem flushed_eq (c : Dev nD) (t : Fin cfg1.N) :
    (dat1 V c).flushed 2 t = ((cfg1.win 2).blk t).view.read (Elt Ideal) (pairFeat (V c main_v1) (V c main_v2)) := by
  show (cfg1.win 2).cut (grid1.coords t) ((dat1 V c).after 2 t) = _
  rw [after1_2]
  obtain ⟨e0, e1, e2, e3, e4, e5, e6, e7⟩ := idx_facts t
  funext y
  refine block_read (iblk1 V c 0 t) (iblk1 V c 1 t) (V c main_v1) (V c main_v2) y (((cfg1.win 2).blk t).view.emb y)
    (fun d => ?_) (fun d q => ?_)
  · show V c main_v1 (((cfg1.win 0).blk t).view.emb (ix3 (y 0) (y 1) d)) = _
    refine congrArg (V c main_v1) (funext fun a => Fin.ext ?_)
    match a with
    | ⟨0, _⟩ =>
      show win1_0.index t (0 : Fin 3) * 256 + 1 * (y 0).val = win1_2.index t (0 : Fin 2) * 256 + 1 * (y 0).val
      omega
    | ⟨1, _⟩ =>
      show win1_0.index t (1 : Fin 3) * 50 + 1 * (y 1).val = win1_2.index t (1 : Fin 2) * 50 + 1 * (y 1).val
      omega
    | ⟨2, _⟩ =>
      show win1_0.index t (2 : Fin 3) * 16 + 1 * d.val = d.val
      omega
  · show V c main_v2 (((cfg1.win 1).blk t).view.emb (ix3 (y 1) d q)) = _
    refine congrArg (V c main_v2) (funext fun a => Fin.ext ?_)
    match a with
    | ⟨0, _⟩ =>
      show win1_1.index t (0 : Fin 3) * 50 + 1 * (y 1).val = win1_2.index t (1 : Fin 2) * 50 + 1 * (y 1).val
      omega
    | ⟨1, _⟩ =>
      show win1_1.index t (1 : Fin 3) * 16 + 1 * d.val = d.val
      omega
    | ⟨2, _⟩ =>
      show win1_1.index t (2 : Fin 3) * 512 + 1 * q.val = q.val
      omega

/-- An index of the feature array is in point `t`'s output block iff each coordinate is in the block's range. -/
theorem mem_blk (t : Fin cfg1.N) (i : S512x50.Idx) :
    i ∈ ((cfg1.win 2).blk t).view.set ↔ ∀ a : Fin 2, win1_2.index t a * S256x50.size a ≤ (i a).val
      ∧ (i a).val < win1_2.index t a * S256x50.size a + S256x50.size a := by
  show i ∈ ((View.whole main_v3).slice (win1_2.rect t)).set ↔ _
  rw [View.set_slice_whole, Rect.mem_set_unit]
  exact Iff.rfl

/-- The two output blocks of 256 rows tile the 512 rows: row `r` is in the block of point `r / 256`. -/
theorem cover (i : S512x50.Idx) : ∃ t : Fin cfg1.N, (cfg1.win 2).flush t = true ∧ i ∈ ((cfg1.win 2).blk t).view.set := by
  have hi0 : (i 0).val < 512 := (i 0).isLt
  have hi1 : (i 1).val < 50 := (i 1).isLt
  have hN : cfg1.N = 2 := N_1
  refine ⟨⟨(i 0).val / 256, by rw [hN]; omega⟩, flush1_2 _, ?_⟩
  rw [mem_blk]
  obtain ⟨e0, e1, e2, e3, e4, e5, e6, e7⟩ := idx_facts ⟨(i 0).val / 256, by rw [hN]; omega⟩
  intro a
  match a with
  | ⟨0, _⟩ =>
    show win1_2.index ⟨(i 0).val / 256, _⟩ (0 : Fin 2) * 256 ≤ (i 0).val
      ∧ (i 0).val < win1_2.index ⟨(i 0).val / 256, _⟩ (0 : Fin 2) * 256 + 256
    rw [e6]; show (i 0).val / 256 * 256 ≤ (i 0).val ∧ (i 0).val < (i 0).val / 256 * 256 + 256; omega
  | ⟨1, _⟩ =>
    show win1_2.index ⟨(i 0).val / 256, _⟩ (1 : Fin 2) * 50 ≤ (i 1).val
      ∧ (i 1).val < win1_2.index ⟨(i 0).val / 256, _⟩ (1 : Fin 2) * 50 + 50
    rw [e7]; omega

/-- After the second region its output array holds `pairFeat` of its two input arrays as the region found them. -/
theorem final (c : Dev nD) : (dat1 V c).arrAt 2 cfg1.N = pairFeat (V c main_v1) (V c main_v2) :=
  (dat1 V c).arrAt_eq_of_cover 2 (pairFeat (V c main_v1) (V c main_v2)) (fun t _ => flushed_eq V c t) (cover)

end

end Cert.KernelIdeal.Region1

end
-- ==== Proof.Bridge.lean ====
/-
  What the kernel's whole program computes is the specification.

  Between the two regions the host reshapes the `[512, 800]` activations to `[512, 50, 16]` (position `(b, k, d)` is
  column `16 k + d` of row `b`: both are `800 b + 16 k + d` in row-major order) and transposes that to `[50, 16, 512]`, so
  the key array at `(k, d, q)` is the activation of row `q`. The second region's array is then, at `(r, k)`,
  `Σ_q exp (0 − Σ_d |act r (k, d) − act q (k, d)|)`; subtracting from zero is negation, so this is `feat r k`. After the
  region the host puts `x` and the features side by side.
-/
import proofs.«108706_j52140902973873_2_alg».proof.Proof.Region0
import proofs.«108706_j52140902973873_2_alg».proof.Proof.Region1
import proofs.«108706_j52140902973873_2_alg».proof.Proof.Spec
import proofs.«108706_j52140902973873_2_alg».proof.Proof.LibPairLayout
import proofs.«108706_j52140902973873_2_alg».proof.Proof.LibDenseRows

noncomputable section

namespace Cert.KernelIdeal.Bridge

open Cert.KernelIdeal Cert.KernelIdeal.Gen Cert.PairwiseL1 Cert.PairLayout
open Idealize.ShloMosaic Idealize.ShloMosaic.ValueIdx
open scoped BigOperators

/-- The activations as the second region's query-side input: the product reshaped to `[512, 50, 16]`. -/
def queryAct (x : S512x512.Idx → EReal) (W : S512x800.Idx → EReal) : S512x50x16.Idx → EReal :=
  shapeCast S512x50x16 (Region0.prod x W) shapeCasts_S512x800_S512x50x16

/-- The result of the kernel's program as one function of its two arguments: `x` beside the second region's array of the
    reshaped product and its transpose. -/
def kernelOut (x : S512x512.Idx → EReal) (W : S512x800.Idx → EReal) : S512x562.Idx → EReal :=
  concatenate S512x562 1
    [⟨S512x512, x⟩,
     ⟨S512x50, Region1.pairFeat (queryAct x W)
        (transpose S50x16x512 [1, 2, 0] (queryAct x W) transposes_S512x50x16_S50x16x512_1_2_0)⟩]
    concatenates_S512x512_S512x50_S512x562_d1

/-- The reshaped product at `(b, k, d)` is the activation of row `b` at coordinate `d` of channel `k`. -/
theorem queryAct_apply (x : S512x512.Idx → EReal) (W : S512x800.Idx → EReal) (b : Fin 512) (k : Fin 50) (d : Fin 16) :
    queryAct x W (ix3 b k d) = act x W b (chan k d) := by
  have hb := b.isLt; have hk := k.isLt; have hd := d.isLt
  refine (shapeCast_apply (Region0.prod x W) shapeCasts_S512x800_S512x50x16 (ix3 b k d) (ix2 b (chan k d)) ?_).trans rfl
  rw [Shape.rowMajor_val_two, Shape.rowMajor_val_three]
  show b.val * 800 + (k.val * 16 + d.val) = (b.val * 50 + k.val) * 16 + d.val
  omega

/-- The kernel's program computes the specification. -/
theorem kernelOut_eq (x : S512x512.Idx → EReal) (W : S512x800.Idx → EReal) : kernelOut x W = out x W := by
  funext i
  obtain ⟨r, c, rfl⟩ : ∃ (r : Fin 512) (c : Fin 562), i = ix2 r c := ⟨i 0, i 1, eq_ix2 i⟩
  show kernelOut x W (ix2 r c) = outAt x W r c
  unfold kernelOut outAt
  have hc := c.isLt
  by_cases h : c.val < 512
  · rw [dif_pos h]
    exact Cert.DenseRows.concat_cols_left x _ concatenates_S512x512_S512x50_S512x562_d1 r c h
  · rw [dif_neg h]
    have h' : c.val - 512 < 50 := by omega
    rw [Cert.DenseRows.concat_cols_right x _ concatenates_S512x512_S512x50_S512x562_d1 r c (by omega) h',
      Region1.pairFeat_apply]
    unfold feat l1dist
    refine Finset.sum_congr rfl fun q _ => ?_
    rw [Ideal.ofBits_zero_f32, zero_sub]
    refine congrArg (fun z => Ideal.exp (-z)) (Finset.sum_congr rfl fun d _ => ?_)
    rw [transpose_ix3_120_apply, queryAct_apply, queryAct_apply]
    rfl

end Cert.KernelIdeal.Bridge

end
-- ==== Proof.KernelRun.lean ====
/-
  The kernel program's run with its result read, and what the result buffer then holds.

  The program is four segments: the matrix-product region, two host operations (a reshape and a transpose), the feature
  region, and one host operation (the closing concatenation). The buffer contents at each boundary are a fold from the
  launch memory: a region replaces its arrays by what its write-backs leave and keeps every other buffer, a host
  stretch applies its operations. Reading the fold at the result buffer from the end backwards — the concatenation of
  `x` and the feature array; the feature array as the second region leaves it; that region's inputs as the reshape and
  transpose of the activations; the activations as the first region leaves them — gives the kernel's composed function of
  the two arguments as launched.
-/
import proofs.«108706_j52140902973873_2_alg».proof.Proof.Gen.KernelIdeal.Frame
import Idealize.ShloMosaic.Lib.StableHlo.Run
import proofs.«108706_j52140902973873_2_alg».proof.Proof.Bridge

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole program's run with its result read: every weakly fair execution of @main terminates, nothing faulting, and
    in every final state the result buffer holds what the last boundary of the run holds there (the contents after
    the closing concatenation), the two argument arrays as launched. The run is the four segments in order — the
    first region, the reshape and transpose, the second region, the concatenation — and the last thread state is read
    against the final state at the result buffer as well as at the arguments. -/
theorem run_boundary : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c)⟩)

/-! ## What the last boundary holds at the result buffer, at the ideal values -/

section Ideal

variable (m : (ℓ : Loc nD τ sig) → Buf (Elt Ideal) ℓ) (ρ : Dev nD → PrngReg)

/-- After the first region the activations' buffer holds the product of the two arguments. -/
theorem acts_eq (c : Dev nD) :
    W1 m ρ c (Proc.devRef .tc main_v0)
      = Region0.prod (m ((c.tc : Thread nD τ).loc main_arg0)) (m ((c.tc : Thread nD τ).loc main_arg1)) :=
  (W1_arr m ρ c 2).trans (Region0.final (V0 m ρ) c)

/-- The second region's query-side input is the activations reshaped … -/
theorem query_eq (c : Dev nD) :
    V2 m ρ c main_v1 = shapeCast S512x50x16 (W1 m ρ c (Proc.devRef .tc main_v0)) shapeCasts_S512x800_S512x50x16 := by
  show StableHlo.after hostOps1 (W1 m ρ c) (Proc.devRef .tc main_v1) = _
  after_results
  rfl

/-- … and its key-side input that, transposed. -/
theorem key_eq (c : Dev nD) :
    V2 m ρ c main_v2 = transpose S50x16x512 [1, 2, 0]
      (shapeCast S512x50x16 (W1 m ρ c (Proc.devRef .tc main_v0)) shapeCasts_S512x800_S512x50x16)
      transposes_S512x50x16_S50x16x512_1_2_0 := by
  show StableHlo.after hostOps1 (W1 m ρ c) (Proc.devRef .tc main_v2) = _
  after_results
  rfl

/-- After the second region the features' buffer holds `pairFeat` of those two inputs. -/
theorem feats_eq (c : Dev nD) :
    W3 m ρ c (Proc.devRef .tc main_v3) = Region1.pairFeat (V2 m ρ c main_v1) (V2 m ρ c main_v2) :=
  (W3_arr m ρ c 2).trans (Region1.final (V2 m ρ) c)

/-- The first argument is still as launched when the closing concatenation reads it. -/
theorem arg0_eq (c : Dev nD) : W3 m ρ c (Proc.devRef .tc main_arg0) = m ((c.tc : Thread nD τ).loc main_arg0) := by
  have h : W4 m ρ c (Proc.devRef .tc main_arg0) = W3 m ρ c (Proc.devRef .tc main_arg0) := by
    show StableHlo.after hostOps2 (W3 m ρ c) (Proc.devRef .tc main_arg0) = _
    after_results
  exact h.symm.trans (W4_main_arg0 m ρ c)

/-- The result buffer at the last boundary holds the kernel's composed function of the two arguments as launched. -/
theorem boundary_eq (c : Dev nD) :
    W4 m ρ c (Proc.devRef .tc main_v4)
      = Bridge.kernelOut (m ((c.tc : Thread nD τ).loc main_arg0)) (m ((c.tc : Thread nD τ).loc main_arg1)) := by
  show StableHlo.after hostOps2 (W3 m ρ c) (Proc.devRef .tc main_v4) = _
  after_results
  rw [arg0_eq, feats_eq, query_eq, key_eq, acts_eq]
  rfl

end Ideal

end Cert.KernelIdeal.Run

end
-- ==== Proof.lean ====
/-
  The certificate of a minibatch-discrimination kernel against its jnp reference, at the ideal values.

  Both programs take a batch `x` of 512 rows of 512 features and a weight matrix `W` (512 × 800), form the activations
  `act = x · W`, read their 800 columns as 50 channels of 16 coordinates, and return `x` with 50 more columns: on channel
  `k`, row `b` gets `Σ_{b₂} exp (− Σ_d |act b (k, d) − act b₂ (k, d)|)`, the sum over all 512 rows.

  The kernel does this in two kernel regions with host operations between and after them: a row-tiled matrix product
  (four blocks of 128 rows); a reshape to `[512, 50, 16]` and a transpose to `[50, 16, 512]`; a region over two blocks of 256
  rows that, channel by channel, subtracts the key array from the query block, sums absolute values over the 16
  coordinates, takes `exp (0 − ·)` and sums over the 512 key rows; and the closing concatenation. The reference does it
  with one `dot_general`, broadcasts to `[512, 512, 50, 16]`, and two `reduce`s. On the extended reals the two are one
  function (Spec.lean's `out`): they differ in how a finite sum is ordered and grouped, in `0 − z` against `− z`, and in a
  zero initial value of a sum — none of which needs the inputs to be finite, so the precondition is never opened.

  The frames are the generated ones; no rewrite was applied in printing the idealized kernel, so there is nothing to
  preserve; the value claim posts both runs at the same `out` of arguments that agree.
-/
import proofs.«108706_j52140902973873_2_alg».proof.Defs
import proofs.«108706_j52140902973873_2_alg».proof.Proof.Gen.Kernel
import proofs.«108706_j52140902973873_2_alg».proof.Proof.Gen.Kernel.Skeleton
import proofs.«108706_j52140902973873_2_alg».proof.Proof.Gen.Kernel.Launch
import proofs.«108706_j52140902973873_2_alg».proof.Proof.Gen.Kernel.Points
import proofs.«108706_j52140902973873_2_alg».proof.Proof.Gen.Kernel.Frame
import proofs.«108706_j52140902973873_2_alg».proof.Proof.Gen.KernelIdeal
import proofs.«108706_j52140902973873_2_alg».proof.Proof.Gen.KernelIdeal.Skeleton
import proofs.«108706_j52140902973873_2_alg».proof.Proof.Gen.KernelIdeal.Launch
import proofs.«108706_j52140902973873_2_alg».proof.Proof.Gen.KernelIdeal.Points
import proofs.«108706_j52140902973873_2_alg».proof.Proof.Gen.KernelIdeal.Frame
import proofs.«108706_j52140902973873_2_alg».proof.Proof.Gen.ReferenceIdeal
import proofs.«108706_j52140902973873_2_alg».proof.Proof.Gen.Pre_finite_inputs
import proofs.«108706_j52140902973873_2_alg».proof.Proof.Gen.ReferenceIdeal.Read
import proofs.«108706_j52140902973873_2_alg».proof.Proof.RefSide
import proofs.«108706_j52140902973873_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: no operation was rewritten. -/
theorem preserves : Cert.preserves_Kernel_KernelIdeal := trivial

/-- From memories that agree on `x` and `W`, both programs end with the result array at `out x W`. -/
theorem algebraic : Cert.algebraic_KernelIdeal_ReferenceIdeal := by
  intro m ρ m' ρ' _ hagree
  refine ⟨fun c => Cert.PairwiseL1.out (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono
      (fun _ h c => ⟨(h c).1.trans ((Cert.KernelIdeal.Run.boundary_eq m ρ c).trans (Cert.KernelIdeal.Bridge.kernelOut_eq _ _)), (h c).2⟩)
      (Cert.KernelIdeal.Run.run_boundary (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v12_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
